-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩
abbrev S1x128 : Shape := ⟨2, ![1, 128]⟩

abbrev nBuf : Space → Nat
  | .hbm => 42
  | .vmem => 7
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000x128, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000x128, .f32⟩
  | .hbm, ⟨32, _⟩ => ⟨S_, .f32⟩
  | .hbm, ⟨33, _⟩ => ⟨S100000x128, .f32⟩
  | .hbm, ⟨34, _⟩ => ⟨S1700000x1, .i32⟩
  | .hbm, ⟨35, _⟩ => ⟨S100000x128, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibRows.lean ====
/-
  Row gathers and row scatter-adds read at an index.

  A segment sum `segment_sum(u, seg, n)` over a flat array `u : [M]` or over rows `u : [M, C]`, and a row lookup
  `x[seg]` of `x : [N]` or `x : [N, C]`, lower to `stablehlo.scatter` / `stablehlo.gather` whose start indices are the
  column `seg[:, None] : [M, 1]`. This module fixes those four sets of dimension numbers and reads them at an index:

  * the scatter's update `e` (or `(e, c)`) lands on element `v` (or `(v, c')`) exactly when the start index
    `seg[e]`, read as a signed integer, is `v` (and `c = c'`); a start index outside `[0, N)` lands nowhere;
  * so, on the extended reals, the accumulating scatter at `v` is the operand's element plus the sum of the updates
    over the set `{e | seg[e] = v}`;
  * the gather's element `e` is the operand at the start index `seg[e]` clamped into `[0, N - 1]`.
-/
import Idealize.ShloMosaic.Lib.ValueIdx
import Idealize.ShloMosaic.PureOps.Ideal

noncomputable section

open scoped BigOperators

namespace Cert.LibRows

open Idealize.ShloMosaic Idealize.ShloMosaic.ValueIdx

/-- The start-index column's entry for row `e`: the index `[e, 0]` of an `[M, 1]` array. -/
abbrev col {M : Nat} (e : Fin M) : (⟨2, ![M, 1]⟩ : Shape).Idx := ix2 e (0 : Fin 1)

/-! ## Scatter of a flat array: operand `[N]`, start indices `[M, 1]`, updates `[M]` -/

/-- `inserted_window_dims = [0]`, `scatter_dims_to_operand_dims = [0]`, `index_vector_dim = 1`, no window axes. -/
abbrev scat1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Scat1
variable {N M w : Nat} (wf : ScatterDims.WF ⟨1, ![N]⟩ ⟨2, ![M, 1]⟩ ⟨1, ![M]⟩ [] [0] [0] 1)

/-- Update `j` starts at its row's start index, read signed. -/
theorem scat1_start (j : (⟨1, ![M]⟩ : Shape).Idx) (idx : IVec ⟨2, ![M, 1]⟩ w) :
    (scat1 N M wf).start j idx 0 = (idx (col (j 0))).toInt := by
  unfold ScatterDims.start
  rw [dif_pos (show (0 : Fin 1) ∈ (scat1 N M wf).scatterDimsToOperandDims from List.mem_singleton.mpr rfl)]
  have hsi : (scat1 N M wf).siIdx j ⟨List.idxOf (0 : Fin 1) (scat1 N M wf).scatterDimsToOperandDims,
      List.idxOf_lt_length_iff.2 (List.mem_singleton.mpr rfl)⟩ = col (j 0) := by
    funext b; refine Fin.ext ?_
    match b with
    | ⟨0, _⟩ => rfl
    | ⟨1, _⟩ => rfl
  rw [hsi]
  rfl

/-- The operand's one axis is inserted: no window coordinate. -/
theorem scat1_window (j : (⟨1, ![M]⟩ : Shape).Idx) : (scat1 N M wf).window j 0 = 0 := by
  unfold ScatterDims.window
  have h : (0 : Fin 1) ∉ (scat1 N M wf).sKept :=
    (by decide : (0 : Fin 1) ∉ (List.finRange 1).filter (fun a => a ∉ [(0 : Fin 1)]))
  rw [dif_neg h]

/-- UPDATE `e` LANDS ON ELEMENT `v` exactly when its start index is `v`. -/
theorem scat1_resultIdx (e : Fin M) (idx : IVec ⟨2, ![M, 1]⟩ w) (v : Fin N) :
    (scat1 N M wf).resultIdx? (ix1 e) idx = some (ix1 v) ↔ (idx (col e)).toInt = (v.val : Int) := by
  have hs : (scat1 N M wf).start (ix1 e) idx 0 + ((scat1 N M wf).window (ix1 e) 0 : Int) = (idx (col e)).toInt := by
    rw [scat1_start, scat1_window, Nat.cast_zero, add_zero]; rfl
  have hv : v.val < N := v.isLt
  unfold ScatterDims.resultIdx?
  split
  · next h =>
    rw [Option.some.injEq]
    constructor
    · intro hq
      have h1 : ((scat1 N M wf).start (ix1 e) idx 0 + ((scat1 N M wf).window (ix1 e) 0 : Int)).toNat = v.val :=
        congrArg (fun f : (⟨1, ![N]⟩ : Shape).Idx => (f 0).val) hq
      have h0 := (h 0).1
      rw [hs] at h1 h0
      omega
    · intro hq
      funext a
      obtain rfl : a = 0 := Subsingleton.elim _ _
      refine Fin.ext ?_
      show ((scat1 N M wf).start (ix1 e) idx 0 + ((scat1 N M wf).window (ix1 e) 0 : Int)).toNat = v.val
      rw [hs, hq]; simp
  · next h =>
    constructor
    · intro hq; exact absurd hq (by simp)
    · intro hq
      refine absurd (fun a => ?_) h
      obtain rfl : a = 0 := Subsingleton.elim _ _
      rw [hs, hq]
      exact ⟨by omega, by show (v.val : Int) < ((N : Nat) : Int); omega⟩

/-- THE ACCUMULATING SCATTER AT ELEMENT `v`, on the extended reals: the operand's element plus the updates whose
    start index is `v`. -/
theorem scat1_apply (x : (⟨1, ![N]⟩ : Shape).Idx → EReal) (idx : IVec ⟨2, ![M, 1]⟩ w)
    (upd : (⟨1, ![M]⟩ : Shape).Idx → EReal) (v : Fin N) :
    Ideal.hostScatterAdd (scat1 N M wf) x idx upd (ix1 v)
      = x (ix1 v) + ∑ e ∈ Finset.univ.filter (fun e : Fin M => (idx (col e)).toInt = (v.val : Int)), upd (ix1 e) := by
  unfold Ideal.hostScatterAdd
  refine congrArg (x (ix1 v) + ·) ?_
  refine Finset.sum_nbij' (fun j => (j 0 : Fin M)) (fun e => ix1 e) ?_ ?_ ?_ ?_ ?_
  · intro j hj
    have hj' := (Finset.mem_filter.mp hj).2
    rw [eq_ix1 j] at hj'
    exact Finset.mem_filter.mpr ⟨Finset.mem_univ _, (scat1_resultIdx wf _ idx v).mp hj'⟩
  · intro e he
    exact Finset.mem_filter.mpr ⟨Finset.mem_univ _, (scat1_resultIdx wf e idx v).mpr (Finset.mem_filter.mp he).2⟩
  · intro j _; exact (eq_ix1 j).symm
  · intro e _; rfl
  · intro j _; exact congrArg upd (eq_ix1 j)

end Scat1

/-! ## Scatter of rows: operand `[N, C]`, start indices `[M, 1]`, updates `[M, C]` -/

/-- `update_window_dims = [1]`, `inserted_window_dims = [0]`, `scatter_dims_to_operand_dims = [0]`,
    `index_vector_dim = 1`. -/
abbrev scat2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Scat2
variable {N M C w : Nat} (wf : ScatterDims.WF ⟨2, ![N, C]⟩ ⟨2, ![M, 1]⟩ ⟨2, ![M, C]⟩ [1] [0] [0] 1)

/-- On the row axis update `j` starts at its row's start index, read signed. -/
theorem scat2_start0 (j : (⟨2, ![M, C]⟩ : Shape).Idx) (idx : IVec ⟨2, ![M, 1]⟩ w) :
    (scat2 N M C wf).start j idx 0 = (idx (col (j 0))).toInt := by
  unfold ScatterDims.start
  rw [dif_pos (show (0 : Fin 2) ∈ (scat2 N M C wf).scatterDimsToOperandDims from List.mem_singleton.mpr rfl)]
  have hsi : (scat2 N M C wf).siIdx j ⟨List.idxOf (0 : Fin 2) (scat2 N M C wf).scatterDimsToOperandDims,
      List.idxOf_lt_length_iff.2 (List.mem_singleton.mpr rfl)⟩ = col (j 0) := by
    funext b; refine Fin.ext ?_
    match b with
    | ⟨0, _⟩ => rfl
    | ⟨1, _⟩ => rfl
  rw [hsi]
  rfl

/-- The column axis is not indexed: the window starts at `0` there. -/
theorem scat2_start1 (j : (⟨2, ![M, C]⟩ : Shape).Idx) (idx : IVec ⟨2, ![M, 1]⟩ w) :
    (scat2 N M C wf).start j idx 1 = 0 := by
  unfold ScatterDims.start
  rw [dif_neg (show (1 : Fin 2) ∉ [(0 : Fin 2)] by decide)]

/-- The row axis is inserted: no window coordinate. -/
theorem scat2_window0 (j : (⟨2, ![M, C]⟩ : Shape).Idx) : (scat2 N M C wf).window j 0 = 0 := by
  unfold ScatterDims.window
  have h : (0 : Fin 2) ∉ (scat2 N M C wf).sKept :=
    (by decide : (0 : Fin 2) ∉ (List.finRange 2).filter (fun a => a ∉ [(0 : Fin 2)]))
  rw [dif_neg h]

/-- The column axis carries the update's column. -/
theorem scat2_window1 (j : (⟨2, ![M, C]⟩ : Shape).Idx) : (scat2 N M C wf).window j 1 = (j 1).val := by
  unfold ScatterDims.window
  have h : (1 : Fin 2) ∈ (scat2 N M C wf).sKept :=
    (by decide : (1 : Fin 2) ∈ (List.finRange 2).filter (fun a => a ∉ [(0 : Fin 2)]))
  rw [dif_pos h]
  rfl

/-- UPDATE `(e, c)` LANDS ON ELEMENT `(v, c')` exactly when row `e`'s start index is `v` and `c = c'`. -/
theorem scat2_resultIdx (e : Fin M) (c : Fin C) (idx : IVec ⟨2, ![M, 1]⟩ w) (v : Fin N) (c' : Fin C) :
    (scat2 N M C wf).resultIdx? (ix2 e c) idx = some (ix2 v c')
      ↔ (idx (col e)).toInt = (v.val : Int) ∧ c = c' := by
  have hs0 : (scat2 N M C wf).start (ix2 e c) idx 0 + ((scat2 N M C wf).window (ix2 e c) 0 : Int) = (idx (col e)).toInt := by
    rw [scat2_start0, scat2_window0, Nat.cast_zero, add_zero]; rfl
  have hs1 : (scat2 N M C wf).start (ix2 e c) idx 1 + ((scat2 N M C wf).window (ix2 e c) 1 : Int) = (c.val : Int) := by
    rw [scat2_start1, scat2_window1, zero_add]; rfl
  have hv : v.val < N := v.isLt
  have hc : c.val < C := c.isLt
  unfold ScatterDims.resultIdx?
  split
  · next h =>
    rw [Option.some.injEq]
    constructor
    · intro hq
      have h1 : ((scat2 N M C wf).start (ix2 e c) idx 0 + ((scat2 N M C wf).window (ix2 e c) 0 : Int)).toNat = v.val :=
        congrArg (fun f : (⟨2, ![N, C]⟩ : Shape).Idx => (f 0).val) hq
      have h2 : ((scat2 N M C wf).start (ix2 e c) idx 1 + ((scat2 N M C wf).window (ix2 e c) 1 : Int)).toNat = c'.val :=
        congrArg (fun f : (⟨2, ![N, C]⟩ : Shape).Idx => (f 1).val) hq
      have h0 := (h 0).1
      rw [hs0] at h1 h0
      rw [hs1] at h2
      exact ⟨by omega, Fin.ext (by omega)⟩
    · rintro ⟨hq, rfl⟩
      funext a
      refine Fin.ext ?_
      match a with
      | ⟨0, _⟩ =>
        show ((scat2 N M C wf).start (ix2 e c) idx 0 + ((scat2 N M C wf).window (ix2 e c) 0 : Int)).toNat = v.val
        rw [hs0, hq]; simp
      | ⟨1, _⟩ =>
        show ((scat2 N M C wf).start (ix2 e c) idx 1 + ((scat2 N M C wf).window (ix2 e c) 1 : Int)).toNat = c.val
        rw [hs1]; simp
  · next h =>
    constructor
    · intro hq; exact absurd hq (by simp)
    · rintro ⟨hq, rfl⟩
      refine absurd (fun a => ?_) h
      match a with
      | ⟨0, _⟩ =>
        show 0 ≤ (scat2 N M C wf).start (ix2 e c) idx 0 + ((scat2 N M C wf).window (ix2 e c) 0 : Int)
          ∧ (scat2 N M C wf).start (ix2 e c) idx 0 + ((scat2 N M C wf).window (ix2 e c) 0 : Int) < ((N : Nat) : Int)
        rw [hs0, hq]; omega
      | ⟨1, _⟩ =>
        show 0 ≤ (scat2 N M C wf).start (ix2 e c) idx 1 + ((scat2 N M C wf).window (ix2 e c) 1 : Int)
          ∧ (scat2 N M C wf).start (ix2 e c) idx 1 + ((scat2 N M C wf).window (ix2 e c) 1 : Int) < ((C : Nat) : Int)
        rw [hs1]; omega

/-- THE ACCUMULATING SCATTER AT ELEMENT `(v, c)`, on the extended reals: the operand's element plus column `c` of the
    update rows whose start index is `v`. -/
theorem scat2_apply (x : (⟨2, ![N, C]⟩ : Shape).Idx → EReal) (idx : IVec ⟨2, ![M, 1]⟩ w)
    (upd : (⟨2, ![M, C]⟩ : Shape).Idx → EReal) (v : Fin N) (c : Fin C) :
    Ideal.hostScatterAdd (scat2 N M C wf) x idx upd (ix2 v c)
      = x (ix2 v c) + ∑ e ∈ Finset.univ.filter (fun e : Fin M => (idx (col e)).toInt = (v.val : Int)), upd (ix2 e c) := by
  unfold Ideal.hostScatterAdd
  refine congrArg (x (ix2 v c) + ·) ?_
  have key : ∀ j : (⟨2, ![M, C]⟩ : Shape).Idx, j ∈ Finset.univ.filter
      (fun j => (scat2 N M C wf).resultIdx? j idx = some (ix2 v c)) →
      (idx (col (j 0 : Fin M))).toInt = (v.val : Int) ∧ (j 1 : Fin C) = c := by
    intro j hj
    have hj' := (Finset.mem_filter.mp hj).2
    rw [eq_ix2 j] at hj'
    exact (scat2_resultIdx wf _ _ idx v c).mp hj'
  refine Finset.sum_nbij' (fun j => (j 0 : Fin M)) (fun e => ix2 e c) ?_ ?_ ?_ ?_ ?_
  · intro j hj
    exact Finset.mem_filter.mpr ⟨Finset.mem_univ _, (key j hj).1⟩
  · intro e he
    exact Finset.mem_filter.mpr ⟨Finset.mem_univ _,
      (scat2_resultIdx wf e c idx v c).mpr ⟨(Finset.mem_filter.mp he).2, rfl⟩⟩
  · intro j hj
    show ix2 (j 0 : Fin M) c = j
    rw [← (key j hj).2]; exact (eq_ix2 j).symm
  · intro e _; rfl
  · intro j hj
    show upd j = upd (ix2 (j 0 : Fin M) c)
    rw [← (key j hj).2]; exact congrArg upd (eq_ix2 j)

end Scat2

/-! ## Gather from a flat array: operand `[N]`, start indices `[M, 1]`, result `[M]` -/

/-- `collapsed_slice_dims = [0]`, `start_index_map = [0]`, `index_vector_dim = 1`, `slice_sizes = [1]`. -/
abbrev gath1 (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER AT ELEMENT `e`: the operand at row `e`'s start index, read signed and clamped into `[0, N - 1]`. -/
theorem gath1_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (gath1 N M wf) x idx (ix1 e) = x (ix1 ⟨min (idx (col e)).toInt.toNat (N - 1), by omega⟩) := by
  unfold Host.gather
  congr 1
  funext a
  obtain rfl : a = 0 := Subsingleton.elim _ _
  refine Fin.ext ?_
  show (gath1 N M wf).start (ix1 e) idx 0 + (gath1 N M wf).batchCoord (ix1 e) 0 + (gath1 N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N M wf).startIndexMap from List.mem_singleton.mpr rfl)]
  have hsi : (gath1 N M wf).siIdx (ix1 e) ⟨List.idxOf (0 : Fin 1) (gath1 N M wf).startIndexMap,
      List.idxOf_lt_length_iff.2 (List.mem_singleton.mpr rfl)⟩ = col e := by
    funext b; refine Fin.ext ?_
    match b with
    | ⟨0, _⟩ => rfl
    | ⟨1, _⟩ => rfl
  rw [hsi]
  rfl

/-! ## Gather of rows: operand `[N, C]`, start indices `[M, 1]`, result `[M, C]` -/

/-- `offset_dims = [1]`, `collapsed_slice_dims = [0]`, `start_index_map = [0]`, `index_vector_dim = 1`,
    `slice_sizes = [1, C]`. -/
abbrev gath2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER AT ELEMENT `(e, c)`: column `c` of the operand's row at row `e`'s start index, read signed and
    clamped into `[0, N - 1]`. -/
theorem gath2_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (c : Fin C) :
    Host.gather (gath2 N M C wf) x idx (ix2 e c)
      = x (ix2 ⟨min (idx (col e)).toInt.toNat (N - 1), by omega⟩ c) := by
  unfold Host.gather
  congr 1
  funext a
  refine Fin.ext ?_
  match a with
  | ⟨0, _⟩ =>
    show (gath2 N M C wf).start (ix2 e c) idx 0 + (gath2 N M C wf).batchCoord (ix2 e c) 0
      + (gath2 N M C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N M C wf).startIndexMap from List.mem_singleton.mpr rfl)]
    have hsi : (gath2 N M C wf).siIdx (ix2 e c) ⟨List.idxOf (0 : Fin 2) (gath2 N M C wf).startIndexMap,
        List.idxOf_lt_length_iff.2 (List.mem_singleton.mpr rfl)⟩ = col e := by
      funext b; refine Fin.ext ?_
      match b with
      | ⟨0, _⟩ => rfl
      | ⟨1, _⟩ => rfl
    rw [hsi]
    rfl
  | ⟨1, _⟩ =>
    show (gath2 N M C wf).start (ix2 e c) idx 1 + (gath2 N M C wf).batchCoord (ix2 e c) 1
      + (gath2 N M C wf).offCoord (ix2 e c) 1 = c.val
    rw [GatherDims.batchCoord_eq_zero _ _ _ List.not_mem_nil]
    have h0 : (gath2 N M C wf).start (ix2 e c) idx 1 = 0 := by
      unfold GatherDims.start
      rw [dif_neg (show (1 : Fin 2) ∉ [(0 : Fin 2)] by decide)]
    have h1 : (gath2 N M C wf).offCoord (ix2 e c) 1 = c.val := by
      unfold GatherDims.offCoord
      have h : (1 : Fin 2) ∈ (gath2 N M C wf).sKept :=
        (GatherDims.mem_sKept _ _).mpr ⟨(by decide : (1 : Fin 2) ∉ [(0 : Fin 2)]), List.not_mem_nil⟩
      rw [dif_pos h]
      rfl
    rw [h0, h1, Nat.zero_add]

end Cert.LibRows

end
-- ==== Proof.GcnSpec.lean ====
/-
  The mathematics of one graph-convolution layer with symmetric normalisation, on the extended reals.

  Nodes `v : Fin N`, messages `e : Fin M` with a source word `s e` and a destination word `d e` (32-bit integers,
  any values). A message lands on node `v` when its destination word, read signed, is `v`; words outside `[0, N)`
  land nowhere. The degree of `v` is the number of messages landing on it, `dinv v = deg(v)^(-1/2)`, and with
  `h = x · W` the layer's output is

      out[v, c] = Σ_{e lands on v} h[src e, c] · (dinv[src e] · dinv[dst e]) + b[c]          (edge by edge)
                = dinv[v] · Σ_{e lands on v} (h[src e, c] · dinv[src e]) + b[c]               (the node's factor pulled out)

  where `src e` is the source word wrapped (a negative word has `N` added) and clamped into `[0, N - 1]`, and
  `dst e = v` for a message that lands on `v`. The two forms are equal because `dinv[v]` is a non-negative REAL
  whenever some message lands on `v` (then `deg v ≥ 1`): a non-negative real factor distributes over any sum of
  extended reals, infinite terms included. Every node receiving its own self-loop message is the hypothesis under
  which they agree; nothing is assumed of `x`, `W` or `b`.

  The first form guards the inverse square root by `deg > 0` (a `select` with `0`), the second by `max(deg, 1)`:
  both guards are inert at `deg ≥ 1`.
-/
import Idealize.ShloMosaic.Lib.ValueIdx
import Idealize.ShloMosaic.PureOps.Ideal
import Idealize.ShloMosaic.PureOps.Ideal.Laws

noncomputable section

open scoped BigOperators

namespace Cert.Gcn

open Idealize.ShloMosaic Idealize.ShloMosaic.ValueIdx

/-- A float comparison on the extended reals is the order's. -/
theorem cmpf_ideal (p : CmpFPredicate) (x y : EReal) :
    FloatOps.cmpf (F := Ideal) (φ := .f32) p x y = Ideal.cmp p x y := rfl

/-- The float pattern `1.0` denotes the real `1`. -/
theorem ofBits_one_f32 : Ideal.ofBits .f32 0x3F800000#32 = 1 := by
  simp [Ideal.ofBits, Ideal.ieee, -EReal.coe_mul]; norm_num

/-! ## Index words -/

/-- jnp's reading of a possibly negative index word: `w + n` below zero, `w` otherwise. -/
def wrap (n w : BitVec 32) : BitVec 32 := Scalar.select (IntOp.cmpi .slt w 0#32) (IntOp.addi w n) w

/-- A non-negative word is its own wrap. -/
theorem wrap_of_nonneg (n w : BitVec 32) (h : 0 ≤ w.toInt) : wrap n w = w := by
  have h0 : w.slt 0#32 = false := by
    rw [BitVec.slt_eq_decide]
    simp only [BitVec.toInt_zero, decide_eq_false_iff_not, not_lt]
    exact h
  unfold wrap IntOp.cmpi
  simp only [h0]
  rfl

/-- A gather's start index: the word read signed and clamped into `[0, N - 1]`. -/
def clampRow {N : Nat} (hN : 0 < N) (w : BitVec 32) : Fin N := ⟨min w.toInt.toNat (N - 1), by omega⟩

/-- A word that reads as a node is clamped to that node. -/
theorem clampRow_of {N : Nat} (hN : 0 < N) (w : BitVec 32) (v : Fin N) (h : w.toInt = (v.val : Int)) :
    clampRow hN w = v := by
  refine Fin.ext ?_
  show min w.toInt.toNat (N - 1) = v.val
  have := v.isLt
  rw [h]; simp only [Int.toNat_natCast]; omega

/-! ## Degrees and their inverse square roots -/

section Degrees
variable {N M : Nat}

/-- The messages landing on node `v`. -/
def landing (d : Fin M → BitVec 32) (v : Fin N) : Finset (Fin M) :=
  Finset.univ.filter (fun e => (d e).toInt = (v.val : Int))

/-- Message `e` lands on `v` exactly when its destination word reads `v`. -/
theorem mem_landing (d : Fin M → BitVec 32) (v : Fin N) (e : Fin M) : e ∈ landing d v ↔ (d e).toInt = (v.val : Int) := by
  unfold landing
  rw [Finset.mem_filter]
  exact ⟨fun h => h.2, fun h => ⟨Finset.mem_univ _, h⟩⟩

/-- The degree as the accumulating scatter computes it: zero plus a one per landing message. -/
def deg (d : Fin M → BitVec 32) (v : Fin N) : EReal := 0 + ∑ _e ∈ landing d v, (1 : EReal)

/-- It is the number of landing messages. -/
theorem deg_eq_card (d : Fin M → BitVec 32) (v : Fin N) : deg d v = (((landing d v).card : ℕ) : EReal) := by
  unfold deg
  rw [zero_add, Finset.sum_const, nsmul_one]

/-- The inverse square root guarded by `max(·, 1)`. -/
def dinvMax (d : Fin M → BitVec 32) (v : Fin N) : EReal := Ideal.rsqrt (max (deg d v) 1)

/-- The inverse square root guarded by `· > 0`. -/
def dinvSel (d : Fin M → BitVec 32) (v : Fin N) : EReal :=
  Scalar.select (Ideal.cmp .ogt (deg d v) 0) (Ideal.rsqrt (deg d v)) 0

/-- At a positive count the inverse square root is a non-negative real, and both guards are inert. -/
theorem rsqrt_count (n : ℕ) (hn : 1 ≤ n) :
    Ideal.rsqrt (max (n : EReal) 1) = Ideal.rsqrt (n : EReal)
    ∧ Scalar.select (Ideal.cmp .ogt (n : EReal) 0) (Ideal.rsqrt (n : EReal)) (0 : EReal) = Ideal.rsqrt (n : EReal)
    ∧ 0 ≤ Ideal.rsqrt (n : EReal) ∧ Ideal.rsqrt (n : EReal) ≠ ⊤ := by
  have h1 : (1 : EReal) ≤ (n : EReal) := by exact_mod_cast hn
  have hpos : (0 : EReal) < (n : EReal) := lt_of_lt_of_le zero_lt_one h1
  have hr : (1 : ℝ) ≤ (n : ℝ) := by exact_mod_cast hn
  have hval : Ideal.rsqrt (n : EReal) = (((Real.sqrt (n : ℝ))⁻¹ : ℝ) : EReal) := by
    rw [← EReal.coe_natCast, Ideal.rsqrt_coe, if_neg (by linarith), if_neg (by linarith)]
  refine ⟨by rw [max_eq_left h1], ?_, ?_, ?_⟩
  · have : Ideal.cmp .ogt (n : EReal) 0 = 1#1 := by
      unfold Ideal.cmp
      simp only [hpos, decide_true]
      rfl
    rw [this]; rfl
  · rw [hval]; exact EReal.coe_nonneg.mpr (inv_nonneg.mpr (Real.sqrt_nonneg _))
  · rw [hval]; exact EReal.coe_ne_top _

variable (d : Fin M → BitVec 32) (v : Fin N)

/-- A node some message lands on: the two guarded inverse square roots agree, … -/
theorem dinvSel_eq_dinvMax (h : (landing d v).Nonempty) : dinvSel d v = dinvMax d v := by
  unfold dinvSel dinvMax
  rw [deg_eq_card]
  obtain ⟨h1, h2, -, -⟩ := rsqrt_count _ (Finset.card_pos.mpr h)
  rw [h1, h2]

/-- … and are a non-negative real. -/
theorem dinvMax_nonneg (h : (landing d v).Nonempty) : 0 ≤ dinvMax d v ∧ dinvMax d v ≠ ⊤ := by
  unfold dinvMax
  rw [deg_eq_card]
  obtain ⟨h1, -, h3, h4⟩ := rsqrt_count _ (Finset.card_pos.mpr h)
  rw [h1]; exact ⟨h3, h4⟩

end Degrees

/-! ## A non-negative real factor moves inside a sum of extended reals -/

theorem mul_sum_of_nonneg {ι : Type} (P : Finset ι) (a : EReal) (ha : 0 ≤ a) (hat : a ≠ ⊤) (t : ι → EReal) :
    a * ∑ e ∈ P, t e = ∑ e ∈ P, a * t e := by
  classical
  induction P using Finset.induction_on with
  | empty => simp
  | insert x s hx ih =>
    rw [Finset.sum_insert hx, Finset.sum_insert hx, EReal.left_distrib_of_nonneg_of_ne_top ha hat, ih]

/-! ## The layer, in its two forms -/

section Layer
variable {N M K C : Nat} (hN : 0 < N)

/-- `h = x · W` at `(i, c)`. -/
def feat (x : (⟨2, ![N, K]⟩ : Shape).Idx → EReal) (W : (⟨2, ![K, C]⟩ : Shape).Idx → EReal) (i : Fin N) (c : Fin C) : EReal :=
  ∑ k : Fin K, x (ix2 i k) * W (ix2 k c)

/-- The row a message reads: its source word wrapped and clamped. -/
def srcRow (n : BitVec 32) (s : Fin M → BitVec 32) (e : Fin M) : Fin N := clampRow hN (wrap n (s e))

/-- The node's factor pulled out of the sum over the messages landing on it. -/
def outPulled (n : BitVec 32) (x : (⟨2, ![N, K]⟩ : Shape).Idx → EReal) (W : (⟨2, ![K, C]⟩ : Shape).Idx → EReal)
    (b : Fin C → EReal) (s d : Fin M → BitVec 32) (v : Fin N) (c : Fin C) : EReal :=
  dinvMax d v * (0 + ∑ e ∈ landing d v, feat x W (srcRow hN n s e) c * dinvMax d (srcRow hN n s e)) + b c

/-- Edge by edge: each message scaled by both of its ends' factors. -/
def outEdgewise (n : BitVec 32) (x : (⟨2, ![N, K]⟩ : Shape).Idx → EReal) (W : (⟨2, ![K, C]⟩ : Shape).Idx → EReal)
    (b : Fin C → EReal) (s d : Fin M → BitVec 32) (v : Fin N) (c : Fin C) : EReal :=
  (0 + ∑ e ∈ landing d v, feat x W (srcRow hN n s e) c
      * (dinvSel d (srcRow hN n s e) * dinvSel d (srcRow hN n d e))) + b c

/-- THE TWO FORMS AGREE when some message lands on every node. -/
theorem outPulled_eq_outEdgewise (n : BitVec 32) (x : (⟨2, ![N, K]⟩ : Shape).Idx → EReal)
    (W : (⟨2, ![K, C]⟩ : Shape).Idx → EReal) (b : Fin C → EReal) (s d : Fin M → BitVec 32)
    (hall : ∀ v : Fin N, (landing d v).Nonempty) (v : Fin N) (c : Fin C) :
    outPulled hN n x W b s d v c = outEdgewise hN n x W b s d v c := by
  unfold outPulled outEdgewise
  refine congrArg (· + b c) ?_
  obtain ⟨ha, hat⟩ := dinvMax_nonneg d v (hall v)
  rw [zero_add, zero_add, mul_sum_of_nonneg _ _ ha hat]
  refine Finset.sum_congr rfl fun e he => ?_
  have hland : (d e).toInt = (v.val : Int) := (Finset.mem_filter.mp he).2
  have hdst : srcRow hN n d e = v := by
    unfold srcRow
    rw [wrap_of_nonneg n (d e) (by rw [hland]; exact Int.natCast_nonneg _)]
    exact clampRow_of hN _ v hland
  rw [hdst, dinvSel_eq_dinvMax d _ (hall _), dinvSel_eq_dinvMax d v (hall v)]
  rw [mul_comm (dinvMax d v) _, mul_assoc]

end Layer

end Cert.Gcn

end
-- ==== Proof.RefValue.lean ====
/-
  The reference read at an index.

  The reference computes, with `src = concat(edge_index[0], arange)`, `dst = concat(edge_index[1], arange)`:
  `deg = segment_sum(1, dst)`, `dinv = where(deg > 0, rsqrt(deg), 0)`, `norm = dinv[src] · dinv[dst]`, `h = x @ W`,
  `out = segment_sum(h[src] · norm[:, None], dst) + b`. Read at `(v, c)` this is the edge-by-edge form of the layer
  (`Gcn.outEdgewise`) over the words `src e`, `dst e`: each segment sum is the accumulating scatter read at an element,
  each lookup a gather with jnp's wrap of negative words in front of it.
-/
import proofs.«130572_j14061722927346_2_alg».proof.Proof.RefReadP
import proofs.«130572_j14061722927346_2_alg».proof.Proof.LibRows
import proofs.«130572_j14061722927346_2_alg».proof.Proof.GcnSpec

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.LibRows Cert.Gcn

/-- There is at least one node. -/
theorem hN : 0 < 100000 := by decide

/-! ## The program's four sets of dimension numbers, read at an index

Each holds for arbitrary operands. -/

/-- The degree's segment sum at node `v`. -/
theorem host_scat1_apply (a : S100000.Idx → EReal) (b : IVec S1700000x1 32) (u : S1700000.Idx → EReal) (v : Fin 100000) :
    Host.scatterAdd (F := Ideal) (φ := .f32) scatter_S100000_S1700000x1_S1700000_n_0_0_1 a b u (ix1 v)
      = a (ix1 v) + ∑ e ∈ Finset.univ.filter (fun e : Fin 1700000 => (b (col e)).toInt = (v.val : Int)), u (ix1 e) := by
  have e1 : Host.scatterAdd (F := Ideal) (φ := .f32) scatter_S100000_S1700000x1_S1700000_n_0_0_1 a b u
      = Ideal.hostScatterAdd (scat1 100000 1700000 Facts₀.scatter_S100000_S1700000x1_S1700000_n_0_0_1_wf) a b u := rfl
  rw [e1]
  exact scat1_apply _ a b u v

/-- The messages' segment sum at `(v, c)`. -/
theorem host_scat2_apply (a : S100000x128.Idx → EReal) (b : IVec S1700000x1 32) (u : S1700000x128.Idx → EReal)
    (v : Fin 100000) (c : Fin 128) :
    Host.scatterAdd (F := Ideal) (φ := .f32) scatter_S100000x128_S1700000x1_S1700000x128_1_0_0_1 a b u (ix2 v c)
      = a (ix2 v c) + ∑ e ∈ Finset.univ.filter (fun e : Fin 1700000 => (b (col e)).toInt = (v.val : Int)), u (ix2 e c) := by
  have e1 : Host.scatterAdd (F := Ideal) (φ := .f32) scatter_S100000x128_S1700000x1_S1700000x128_1_0_0_1 a b u
      = Ideal.hostScatterAdd (scat2 100000 1700000 128 Facts₀.scatter_S100000x128_S1700000x1_S1700000x128_1_0_0_1_wf) a b u := rfl
  rw [e1]
  exact scat2_apply _ a b u v c

/-- A lookup in a flat array at message `e`. -/
theorem host_gath1_apply (a : S100000.Idx → EReal) (b : IVec S1700000x1 32) (e : Fin 1700000) :
    Host.gather gather_S100000_S1700000x1_S1700000_n_0_n_n_0_1_1 a b (ix1 e) = a (ix1 (clampRow hN (b (col e)))) := by
  have e1 : gather_S100000_S1700000x1_S1700000_n_0_n_n_0_1_1
      = gath1 100000 1700000 Facts₀.gather_S100000_S1700000x1_S1700000_n_0_n_n_0_1_1_wf := rfl
  rw [e1]
  exact gath1_apply hN _ a b e

/-- A row lookup at `(e, c)`. -/
theorem host_gath2_apply (a : S100000x128.Idx → EReal) (b : IVec S1700000x1 32) (e : Fin 1700000) (c : Fin 128) :
    Host.gather gather_S100000x128_S1700000x1_S1700000x128_1_0_n_n_0_1_1128 a b (ix2 e c)
      = a (ix2 (clampRow hN (b (col e))) c) := by
  have e1 : gather_S100000x128_S1700000x1_S1700000x128_1_0_n_n_0_1_1128
      = gath2 100000 1700000 128 Facts₀.gather_S100000x128_S1700000x1_S1700000x128_1_0_n_n_0_1_1128_wf := rfl
  rw [e1]
  exact gath2_apply hN _ a b e c

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))

/-- Message `e`'s source word. -/
def srcW (e : Fin 1700000) : BitVec 32 := val_main_v3 (F := Ideal) x1 (ix1 e)
/-- Message `e`'s destination word. -/
def dstW (e : Fin 1700000) : BitVec 32 := val_main_v6 (F := Ideal) x1 (ix1 e)

/-- The last 100000 messages are the self loops: message `1600000 + v` has destination word `v`. -/
theorem dstW_self (v : Fin 100000) : (dstW x1 ⟨1600000 + v.val, by have := v.isLt; omega⟩).toInt = (v.val : Int) := by
  have hv := v.isLt
  have h : dstW x1 ⟨1600000 + v.val, by omega⟩ = BitVec.ofNat 32 v.val := by
    unfold dstW val_main_v6
    refine (concatenate_pair_apply_right (t := S1700000) (s₁ := S1600000) (s₂ := S100000) 0 _ _
      concatenates_S1600000_S100000_S1700000_d0 (ix1 ⟨1600000 + v.val, by omega⟩) rfl rfl (ix1 v) ?_ ?_).trans ?_
    · intro b hb; exact absurd (Subsingleton.elim _ _) hb
    · show v.val + 1600000 = 1600000 + v.val; omega
    · rfl
  rw [h, BitVec.toInt_eq_toNat_cond, BitVec.toNat_ofNat]
  have e : v.val % 2 ^ 32 = v.val := Nat.mod_eq_of_lt (by omega)
  rw [e, if_pos (by omega)]

/-- So some message lands on every node. -/
theorem landing_nonempty (v : Fin 100000) : (landing (dstW x1) v).Nonempty :=
  ⟨⟨1600000 + v.val, by have := v.isLt; omega⟩, (mem_landing _ v _).mpr (dstW_self x1 v)⟩

/-! ## The start-index columns -/

theorem col_v9 (e : Fin 1700000) : val_main_v9 (F := Ideal) x1 (col e) = dstW x1 e := by
  rw [val_main_v9_apply]
  exact congrArg (val_main_v6 (F := Ideal) x1) (funext fun a => match a with | ⟨0, _⟩ => rfl)

theorem col_v42 (e : Fin 1700000) : val_main_v42 (F := Ideal) x1 (col e) = dstW x1 e := by
  rw [val_main_v42_apply]
  exact congrArg (val_main_v6 (F := Ideal) x1) (funext fun a => match a with | ⟨0, _⟩ => rfl)

/-- The wrapped source words, as the gather of `dinv` reads them. -/
theorem col_v20 (e : Fin 1700000) : val_main_v20 (F := Ideal) x1 (col e) = wrap 100000#32 (srcW x1 e) := by
  rw [val_main_v20_apply]
  have hi : idx_main_v20 (col e) = ix1 e := funext fun a => match a with | ⟨0, _⟩ => rfl
  rw [hi, val_main_v19_apply, val_main_v16_apply, val_main_v18_apply, val_main_v15_apply, val_main_v17_apply,
    val_main_c_apply, val_main_c_3_apply]
  rfl

/-- The wrapped destination words. -/
theorem col_v27 (e : Fin 1700000) : val_main_v27 (F := Ideal) x1 (col e) = wrap 100000#32 (dstW x1 e) := by
  rw [val_main_v27_apply]
  have hi : idx_main_v27 (col e) = ix1 e := funext fun a => match a with | ⟨0, _⟩ => rfl
  rw [hi, val_main_v26_apply, val_main_v23_apply, val_main_v25_apply, val_main_v22_apply, val_main_v24_apply,
    val_main_c_4_apply, val_main_c_5_apply]
  rfl

/-- The wrapped source words, as the gather of `h`'s rows reads them. -/
theorem col_v36 (e : Fin 1700000) : val_main_v36 (F := Ideal) x1 (col e) = wrap 100000#32 (srcW x1 e) := by
  rw [val_main_v36_apply]
  have hi : idx_main_v36 (col e) = ix1 e := funext fun a => match a with | ⟨0, _⟩ => rfl
  rw [hi, val_main_v35_apply, val_main_v32_apply, val_main_v34_apply, val_main_v31_apply, val_main_v33_apply,
    val_main_c_6_apply, val_main_c_7_apply]
  rfl

/-! ## Degrees and `dinv` -/

/-- `segment_sum(ones, dst)` at node `v` is the degree. -/
theorem deg_apply (v : Fin 100000) : val_main_v10 (F := Ideal) x1 (ix1 v) = deg (dstW x1) v := by
  unfold val_main_v10
  rw [host_scat1_apply]
  unfold deg landing
  rw [val_main_v8_apply, val_main_cst_0_apply, Ideal.ofBits_def, Ideal.ofBits_zero_f32]
  simp only [col_v9]
  refine congrArg (0 + ·) (Finset.sum_congr rfl fun e _ => ?_)
  rw [val_main_v7_apply, val_main_cst_apply, Ideal.ofBits_def, ofBits_one_f32]

/-- `where(deg > 0, rsqrt(deg), 0)` at node `i`. -/
theorem dinv_apply (i : Fin 100000) : val_main_v14 (F := Ideal) x1 (ix1 i) = dinvSel (dstW x1) i := by
  rw [val_main_v14_apply, val_main_v12_apply, val_main_v13_apply, val_main_call0_v1_apply, val_main_call0_v0_apply,
    val_main_cst_2_apply, val_main_v11_apply, val_main_cst_1_apply, deg_apply, Ideal.ofBits_def, Ideal.ofBits_zero_f32]
  unfold dinvSel
  exact congrArg₂ (fun a b => Scalar.select a b (0 : EReal)) (cmpf_ideal _ _ _) (Ideal.hostUnary_rsqrt_def _)

/-- `norm = dinv[src] · dinv[dst]` at message `e`. -/
theorem norm_apply (e : Fin 1700000) :
    val_main_v29 (F := Ideal) x1 (ix1 e)
      = dinvSel (dstW x1) (srcRow hN 100000#32 (srcW x1) e) * dinvSel (dstW x1) (srcRow hN 100000#32 (dstW x1) e) := by
  rw [val_main_v29_apply]
  have h21 : val_main_v21 (F := Ideal) x1 (ix1 e) = dinvSel (dstW x1) (srcRow hN 100000#32 (srcW x1) e) := by
    unfold val_main_v21
    rw [host_gath1_apply, col_v20]
    exact dinv_apply x1 _
  have h28 : val_main_v28 (F := Ideal) x1 (ix1 e) = dinvSel (dstW x1) (srcRow hN 100000#32 (dstW x1) e) := by
    unfold val_main_v28
    rw [host_gath1_apply, col_v27]
    exact dinv_apply x1 _
  rw [h21, h28]
  rfl

/-! ## `h = x @ W` and the messages -/

/-- `x @ W` at `(i, c)`. -/
theorem feat_apply (i : Fin 100000) (c : Fin 128) : val_main_v30 (F := Ideal) x0 x2 (ix2 i c) = feat x0 x2 i c := by
  rw [val_main_v30_apply]
  unfold feat
  refine Finset.sum_congr rfl fun k _ => ?_
  have hl : lidx_main_v30 (ix2 i c) k = ix2 i k := funext fun a => match a with | ⟨0, _⟩ => rfl | ⟨1, _⟩ => rfl
  have hr : ridx_main_v30 (ix2 i c) k = ix2 k c := funext fun a => match a with | ⟨0, _⟩ => rfl | ⟨1, _⟩ => rfl
  rw [hl, hr]

/-- `h[src] · norm[:, None]` at `(e, c)`. -/
theorem msg_apply (e : Fin 1700000) (c : Fin 128) :
    val_main_v40 (F := Ideal) x0 x1 x2 (ix2 e c)
      = feat x0 x2 (srcRow hN 100000#32 (srcW x1) e) c
        * (dinvSel (dstW x1) (srcRow hN 100000#32 (srcW x1) e) * dinvSel (dstW x1) (srcRow hN 100000#32 (dstW x1) e)) := by
  rw [val_main_v40_apply]
  have h37 : val_main_v37 (F := Ideal) x0 x1 x2 (ix2 e c) = feat x0 x2 (srcRow hN 100000#32 (srcW x1) e) c := by
    unfold val_main_v37
    rw [host_gath2_apply, col_v36]
    exact feat_apply x0 x2 _ c
  have h39 : val_main_v39 (F := Ideal) x1 (ix2 e c) = val_main_v29 (F := Ideal) x1 (ix1 e) := by
    rw [val_main_v39_apply, val_main_v38_apply]
    exact congrArg (val_main_v29 (F := Ideal) x1) (funext fun a => match a with | ⟨0, _⟩ => rfl)
  rw [h37, h39, norm_apply]
  rfl

/-! ## The result -/

/-- THE REFERENCE'S RESULT AT `(v, c)` is the layer edge by edge. -/
theorem result_apply (v : Fin 100000) (c : Fin 128) :
    val_main_v46 (F := Ideal) x0 x1 x2 x3 (ix2 v c)
      = outEdgewise hN 100000#32 x0 x2 (fun c => x3 (ix1 c)) (srcW x1) (dstW x1) v c := by
  rw [val_main_v46_apply]
  have h43 : val_main_v43 (F := Ideal) x0 x1 x2 (ix2 v c)
      = 0 + ∑ e ∈ landing (dstW x1) v, feat x0 x2 (srcRow hN 100000#32 (srcW x1) e) c
        * (dinvSel (dstW x1) (srcRow hN 100000#32 (srcW x1) e) * dinvSel (dstW x1) (srcRow hN 100000#32 (dstW x1) e)) := by
    unfold val_main_v43
    rw [host_scat2_apply]
    unfold landing
    rw [val_main_v41_apply, val_main_cst_8_apply, Ideal.ofBits_def, Ideal.ofBits_zero_f32]
    simp only [col_v42]
    exact congrArg (0 + ·) (Finset.sum_congr rfl fun e _ => msg_apply x0 x1 x2 e c)
  have h45 : val_main_v45 (F := Ideal) x3 (ix2 v c) = x3 (ix1 c) := by
    rw [val_main_v45_apply, val_main_v44_apply]
    exact congrArg x3 (funext fun a => match a with | ⟨0, _⟩ => rfl)
  rw [h43, h45]
  rfl

end Cert.ReferenceIdeal.RefValue

end
-- ==== Proof.LibColumn.lean ====
/-
  A column vector's layout operations read at an index: the two forms a reduction that keeps its axis
  (a row sum, a row maximum kept as an `[a, 1]` column) needs and Lib/ValueLayout.lean does not have.
  A one-axis array cast to a column reads the operand at the row; a column broadcast along the lanes reads
  the column at the row, whatever the lane.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`:
    row-major, `(i, u)` is element `i * 1 + u = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Sums over the indices of a one-axis array and of a column -/

/-- The indices of a one-axis shape are its coordinates. -/
def idxEquiv1 {n : ℕ} : (⟨1, ![n]⟩ : Shape).Idx ≃ Fin n where
  toFun i := i 0
  invFun r := ix1 r
  left_inv i := (eq_ix1 i).symm
  right_inv _ := rfl

/-- A sum over the indices of an `[n]` array is the sum over its `n` coordinates. -/
theorem sum_idx1 {M : Type*} [AddCommMonoid M] {n : ℕ} (f : (⟨1, ![n]⟩ : Shape).Idx → M) :
    ∑ i, f i = ∑ r : Fin n, f (ix1 r) :=
  (Equiv.sum_comp idxEquiv1.symm f).symm

/-- A sum over the indices of an `[n, 1]` column is the sum over its `n` rows. -/
theorem sum_idx_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

end Cert.LibColumn
-- ==== Proof.KernelBody.lean ====
/-
  The kernel body's stored value at an index.

  At a grid point the body holds a block of 5000 rows of `x`, all of `W`, and the matching 5000 entries of the column
  `dinv[:, None]`. It stores `(x_blk · W) * dinv_blk`: the matrix product into a zero accumulator, a change of float format on
  the way in (the identity on the extended reals), times the column broadcast along the 128 lanes. At `(r, c)` that is
  `(Σ_k x_blk[r, k] · W[k, c]) · dinv_blk[r, 0]`.
-/
import proofs.«130572_j14061722927346_2_alg».proof.Proof.Gen.KernelIdeal.Skeleton
import proofs.«130572_j14061722927346_2_alg».proof.Proof.LibColumn
import Idealize.ShloMosaic.Lib.ValueIdx
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.TcCoe Idealize.ShloMosaic.ValueIdx

/-- The block's matrix product at `(r, c)`: the sum over the one contracted axis. -/
theorem matmul_block_apply (x : FVec Ideal S5000x128 .bf16) (w : FVec Ideal S128x128 .bf16) (r : Fin 5000) (c : Fin 128) :
    matmul dot_S5000x128_S128x128_S5000x128_1_0_0_1_n_n none x w (constant S5000x128 .f32 0x00000000#32) (ix2 r c)
      = ∑ k : Fin 128, x (ix2 r k) * w (ix2 k c) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have l0 : ∀ q : dot_S5000x128_S128x128_S5000x128_1_0_0_1_n_n.contr.Idx, (dot_S5000x128_S128x128_S5000x128_1_0_0_1_n_n.lhsIdx (ix2 r c) q 0).val = r.val := fun q => by
    unfold DotDims.lhsIdx
    rw [dif_neg (show ¬(0 : Fin S5000x128.rank) ∈ dot_S5000x128_S128x128_S5000x128_1_0_0_1_n_n.lhsBatch by decide),
      dif_pos (show (0 : Fin S5000x128.rank) ∈ dot_S5000x128_S128x128_S5000x128_1_0_0_1_n_n.lhsNonContracting by decide)]
    rfl
  have r1 : ∀ q : dot_S5000x128_S128x128_S5000x128_1_0_0_1_n_n.contr.Idx, (dot_S5000x128_S128x128_S5000x128_1_0_0_1_n_n.rhsIdx (ix2 r c) q 1).val = c.val := fun q => by
    unfold DotDims.rhsIdx
    rw [dif_neg (show ¬(1 : Fin S128x128.rank) ∈ dot_S5000x128_S128x128_S5000x128_1_0_0_1_n_n.rhsBatch by decide),
      dif_pos (show (1 : Fin S128x128.rank) ∈ dot_S5000x128_S128x128_S5000x128_1_0_0_1_n_n.rhsNonContracting by decide)]
    rfl
  have el : dot_S5000x128_S128x128_S5000x128_1_0_0_1_n_n.lhsIdx (ix2 r c) ((contrEquiv1 dot_S5000x128_S128x128_S5000x128_1_0_0_1_n_n 128 rfl rfl).symm k) = ix2 r k :=
    funext fun a => Fin.ext (by
      match a with
      | ⟨0, _⟩ => exact l0 _
      | ⟨1, _⟩ => exact (dot_S5000x128_S128x128_S5000x128_1_0_0_1_n_n.lhsIdx_val_of_single rfl (ix2 r c) _).trans hk)
  have er : dot_S5000x128_S128x128_S5000x128_1_0_0_1_n_n.rhsIdx (ix2 r c) ((contrEquiv1 dot_S5000x128_S128x128_S5000x128_1_0_0_1_n_n 128 rfl rfl).symm k) = ix2 k c :=
    funext fun a => Fin.ext (by
      match a with
      | ⟨0, _⟩ => exact (dot_S5000x128_S128x128_S5000x128_1_0_0_1_n_n.rhsIdx_val_of_single rfl (ix2 r c) _).trans hk
      | ⟨1, _⟩ => exact r1 _)
  rw [el, er]

/-- THE STORED VALUE at `(r, c)`. -/
theorem pay_apply (x : Vec Ideal S5000x128 .f32) (w : Vec Ideal S128x128 .f32) (dv : Vec Ideal S5000x1 .f32)
    (r : Fin 5000) (c : Fin 128) :
    k0_pay1 (F := Ideal) x w dv (ix2 r c)
      = (∑ k : Fin 128, (x (ix2 r k) : EReal) * (w (ix2 k c) : EReal)) * (dv (ix2 r (0 : Fin 1)) : EReal) := by
  unfold k0_pay1
  refine (mulf_apply _ _ _).trans ?_
  refine congrArg₂ (· * ·) (matmul_block_apply _ _ r c) ?_
  rw [Cert.LibColumn.broadcastTo_a1_ab_apply, shapeCast_self]

end Cert.KernelIdeal.KValue

end
-- ==== Proof.KernelArray.lean ====
/-
  From blocks to the array: what the pallas_call leaves in its output.

  Grid point `t` of 20 handles rows `5000 t … 5000 t + 4999`: it reads that block of `x` and of the column
  `dinv[:, None]`, all of `W`, and writes that block of the output. Each written block is the matching block of ONE
  whole-array function — `scaled x W dcol (i, c) = (Σ_k x[i, k] · W[k, c]) · dcol[i, 0]` —, and the 20 blocks tile the
  100000 rows, so the output array ends holding that function of the arrays the region was entered with.
-/
import proofs.«130572_j14061722927346_2_alg».proof.Proof.Gen.KernelIdeal.Frame
import proofs.«130572_j14061722927346_2_alg».proof.Proof.KernelBody
import Idealize.ShloMosaic.Lib.Pipeline.Value

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The scaled features: row `i` of `x · W` times entry `i` of the column. -/
def scaled (x : S100000x128.Idx → EReal) (w : S128x128.Idx → EReal) (dcol : S100000x1.Idx → EReal) :
    S100000x128.Idx → EReal :=
  fun i => (∑ k : Fin 128, x (ix2 (i 0 : Fin 100000) k) * w (ix2 k (i 1 : Fin 128))) * dcol (ix2 (i 0 : Fin 100000) (0 : Fin 1))

/-- The printed index maps over the 20 points: the row blocks of `x`, of the column and of the output move together,
    `W` stays, every column index is `0`. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 :=
  (by decide +kernel : ∀ t : Fin grid0.N, _)

/-- Every one of the 20 row blocks is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-! ## The input blocks, read where the output's block says -/

/-- Reading any `[100000, 128]` array through point `t`'s block of window 0, at `(p, k)`. -/
theorem blk0_read (t : Fin cfg0.N) (f : S100000x128.Idx → EReal) (p : Fin 5000) (k : Fin 128) (i : S100000x128.Idx)
    (h0 : (i 0).val = win0_0.index t (0 : Fin 2) * 5000 + p.val) (h1 : (i 1).val = win0_0.index t (1 : Fin 2) * 128 + k.val) :
    ((cfg0.win 0).blk t).view.read (Elt Ideal) f (ix2 p k) = f i := by
  show f (((cfg0.win 0).blk t).view.emb (ix2 p k)) = f i
  refine congrArg f (funext fun a => Fin.ext ?_)
  match a with
  | ⟨0, _⟩ => show win0_0.index t (0 : Fin 2) * 5000 + 1 * p.val = (i 0).val; omega
  | ⟨1, _⟩ => show win0_0.index t (1 : Fin 2) * 128 + 1 * k.val = (i 1).val; omega

/-- Reading any `[128, 128]` array through window 1's block (the whole array), at `(k, q)`. -/
theorem blk1_read (t : Fin cfg0.N) (f : S128x128.Idx → EReal) (k : Fin 128) (q : Fin 128) (i : S128x128.Idx)
    (h0 : (i 0).val = win0_1.index t (0 : Fin 2) * 128 + k.val) (h1 : (i 1).val = win0_1.index t (1 : Fin 2) * 128 + q.val) :
    ((cfg0.win 1).blk t).view.read (Elt Ideal) f (ix2 k q) = f i := by
  show f (((cfg0.win 1).blk t).view.emb (ix2 k q)) = f i
  refine congrArg f (funext fun a => Fin.ext ?_)
  match a with
  | ⟨0, _⟩ => show win0_1.index t (0 : Fin 2) * 128 + 1 * k.val = (i 0).val; omega
  | ⟨1, _⟩ => show win0_1.index t (1 : Fin 2) * 128 + 1 * q.val = (i 1).val; omega

/-- Reading any `[100000, 1]` column through point `t`'s block of window 2, at `(p, 0)`. -/
theorem blk2_read (t : Fin cfg0.N) (f : S100000x1.Idx → EReal) (p : Fin 5000) (i : S100000x1.Idx)
    (h0 : (i 0).val = win0_2.index t (0 : Fin 2) * 5000 + p.val) (h1 : (i 1).val = win0_2.index t (1 : Fin 2) * 1 + 0) :
    ((cfg0.win 2).blk t).view.read (Elt Ideal) f (ix2 p (0 : Fin 1)) = f i := by
  show f (((cfg0.win 2).blk t).view.emb (ix2 p (0 : Fin 1))) = f i
  refine congrArg f (funext fun a => Fin.ext ?_)
  match a with
  | ⟨0, _⟩ => show win0_2.index t (0 : Fin 2) * 5000 + 1 * p.val = (i 0).val; omega
  | ⟨1, _⟩ => show win0_2.index t (1 : Fin 2) * 1 + 1 * 0 = (i 1).val; omega

/-! ## What a point writes back, and the cover -/

/-- The body's result on point `t`'s blocks of ANY three arrays is block `t` of their scaled features. -/
theorem block_of_scaled (t : Fin cfg0.N) (fx : S100000x128.Idx → EReal) (fw : S128x128.Idx → EReal)
    (fd : S100000x1.Idx → EReal) :
    (cfg0.win 3).cut (grid0.coords t) (out0_3 (F := Ideal) (((cfg0.win 0).blk t).view.read (Elt Ideal) fx)
        (((cfg0.win 1).blk t).view.read (Elt Ideal) fw) (((cfg0.win 2).blk t).view.read (Elt Ideal) fd))
      = ((cfg0.win 3).blk t).view.read (Elt Ideal) (scaled fx fw fd) := by
  unfold out0_3
  rw [View.canon_unit_zero hz]
  simp only [View.ld_unit_zero (S := S5000x128) hz, View.ld_unit_zero (S := S128x128) hz, View.ld_unit_zero (S := S5000x1) hz]
  obtain ⟨e0, e1, e2, e3, e4, e5, e6⟩ := idx_facts t
  refine funext fun (j : S5000x128.Idx) => ?_
  obtain ⟨p, q, rfl⟩ : ∃ (p : Fin 5000) (q : Fin 128), j = ix2 p q := ⟨j 0, j 1, eq_ix2 j⟩
  show k0_pay1 (((cfg0.win 0).blk t).view.read (Elt Ideal) fx) (((cfg0.win 1).blk t).view.read (Elt Ideal) fw)
      (((cfg0.win 2).blk t).view.read (Elt Ideal) fd) (ix2 p q)
    = scaled fx fw fd (((cfg0.win 3).blk t).view.emb (ix2 p q))
  refine (pay_apply (((cfg0.win 0).blk t).view.read (Elt Ideal) fx) (((cfg0.win 1).blk t).view.read (Elt Ideal) fw)
      (((cfg0.win 2).blk t).view.read (Elt Ideal) fd) p q).trans ?_
  have r0 : ((((cfg0.win 3).blk t).view.emb (ix2 p q)) 0).val = win0_3.index t (0 : Fin 2) * 5000 + 1 * p.val := rfl
  have r1 : ((((cfg0.win 3).blk t).view.emb (ix2 p q)) 1).val = win0_3.index t (1 : Fin 2) * 128 + 1 * q.val := rfl
  unfold scaled
  refine congrArg₂ (· * ·) (Finset.sum_congr rfl fun k _ => congrArg₂ (· * ·) ?_ ?_) ?_
  · exact blk0_read t fx p k _ (by show _ = win0_0.index t (0 : Fin 2) * 5000 + p.val; rw [r0]; omega)
      (by show k.val = win0_0.index t (1 : Fin 2) * 128 + k.val; omega)
  · exact blk1_read t fw k q _ (by show k.val = win0_1.index t (0 : Fin 2) * 128 + k.val; omega)
      (by show _ = win0_1.index t (1 : Fin 2) * 128 + q.val; rw [r1]; omega)
  · exact blk2_read t fd p _ (by show _ = win0_2.index t (0 : Fin 2) * 5000 + p.val; rw [r0]; omega)
      (by show 0 = win0_2.index t (1 : Fin 2) * 1 + 0; omega)

/-- WHAT POINT `t` WRITES BACK is block `t` of the scaled features of the arrays as the region finds them. -/
theorem flushed3_eq (c : Dev nD) (t : Fin cfg0.N) :
    (dats m 0 c).flushed 3 t = ((cfg0.win 3).blk t).view.read (Elt Ideal)
      (scaled (V m c main_arg0) (V m c main_arg2) (V m c main_v14)) := by
  show (cfg0.win 3).cut (grid0.coords t) ((dats m 0 c).after 3 t) = _
  rw [after0_3]
  unfold iblk
  exact block_of_scaled t (V m c main_arg0) (V m c main_arg2) (V m c main_v14)

/-- An index of the output is in point `t`'s block iff each coordinate is in the block's range. -/
theorem mem_blk3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- The 20 blocks cover the output: row `r` is in the block of point `r / 5000`. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk3]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- THE OUTPUT ARRAY after the region: the scaled features of the arrays as the region finds them. -/
theorem final3 (c : Dev nD) :
    (dats m 0 c).arrAt 3 cfg0.N = scaled (V m c main_arg0) (V m c main_arg2) (V m c main_v14) :=
  (dats m 0 c).arrAt_eq_of_cover 3 _ (fun t _ => flushed3_eq m c t) cover3

end Cert.KernelIdeal.KValue

end
-- ==== Proof.KernelTail.lean ====
/-
  The host code around the pallas_call, and the kernel program's result at an index.

  Before the call the host builds `src`, `dst` (each a row of `edge_index` followed by `arange`), the degree
  `segment_sum(1, dst)` and `dinv = rsqrt(max(deg, 1))`, and hands the call the column `dinv[:, None]`. After it, with
  `h2` the call's output: `out = dinv[:, None] · segment_sum(h2[src], dst) + b`. Read at `(v, c)`, with `h2` the scaled
  features (`KValue.scaled`), this is the layer with the node's factor pulled out of the sum (`Gcn.outPulled`).
-/
import proofs.«130572_j14061722927346_2_alg».proof.Proof.KernelArray
import proofs.«130572_j14061722927346_2_alg».proof.Proof.LibRows
import proofs.«130572_j14061722927346_2_alg».proof.Proof.GcnSpec
import Idealize.ShloMosaic.Lib.StableHlo.Run

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.LibRows Cert.Gcn

/-- There is at least one node. -/
theorem hN : 0 < 100000 := by decide

/-! ## The program's dimension numbers read at an index, over arbitrary operands -/

/-- The degree's segment sum at node `v`. -/
theorem host_scat1_apply (a : S100000.Idx → EReal) (b : IVec S1700000x1 32) (u : S1700000.Idx → EReal) (v : Fin 100000) :
    Host.scatterAdd (F := Ideal) (φ := .f32) scatter_S100000_S1700000x1_S1700000_n_0_0_1 a b u (ix1 v)
      = a (ix1 v) + ∑ e ∈ Finset.univ.filter (fun e : Fin 1700000 => (b (col e)).toInt = (v.val : Int)), u (ix1 e) := by
  have e1 : Host.scatterAdd (F := Ideal) (φ := .f32) scatter_S100000_S1700000x1_S1700000_n_0_0_1 a b u
      = Ideal.hostScatterAdd (scat1 100000 1700000 Facts₀.scatter_S100000_S1700000x1_S1700000_n_0_0_1_wf) a b u := rfl
  rw [e1]
  exact scat1_apply _ a b u v

/-- The rows' segment sum at `(v, c)`. -/
theorem host_scat2_apply (a : S100000x128.Idx → EReal) (b : IVec S1700000x1 32) (u : S1700000x128.Idx → EReal)
    (v : Fin 100000) (c : Fin 128) :
    Host.scatterAdd (F := Ideal) (φ := .f32) scatter_S100000x128_S1700000x1_S1700000x128_1_0_0_1 a b u (ix2 v c)
      = a (ix2 v c) + ∑ e ∈ Finset.univ.filter (fun e : Fin 1700000 => (b (col e)).toInt = (v.val : Int)), u (ix2 e c) := by
  have e1 : Host.scatterAdd (F := Ideal) (φ := .f32) scatter_S100000x128_S1700000x1_S1700000x128_1_0_0_1 a b u
      = Ideal.hostScatterAdd (scat2 100000 1700000 128 Facts₀.scatter_S100000x128_S1700000x1_S1700000x128_1_0_0_1_wf) a b u := rfl
  rw [e1]
  exact scat2_apply _ a b u v c

/-- A row lookup at `(e, c)`. -/
theorem host_gath2_apply (a : S100000x128.Idx → EReal) (b : IVec S1700000x1 32) (e : Fin 1700000) (c : Fin 128) :
    Host.gather gather_S100000x128_S1700000x1_S1700000x128_1_0_n_n_0_1_1128 a b (ix2 e c) = a (ix2 (clampRow hN (b (col e))) c) := by
  have e1 : gather_S100000x128_S1700000x1_S1700000x128_1_0_n_n_0_1_1128 = gath2 100000 1700000 128 Facts₀.gather_S100000x128_S1700000x1_S1700000x128_1_0_n_n_0_1_1128_wf := rfl
  rw [e1]
  exact gath2_apply hN _ a b e c

/-! ## Broadcasts read at an index -/

/-- A flat array as a start-index column. -/
theorem bcol_apply {α : Type} (y : S1700000.Idx → α) (e : Fin 1700000) :
    broadcastInDim S1700000x1 ![0] bcast_S1700000_S1700000x1_0 y (col e) = y (ix1 e) :=
  broadcastInDim_apply _ bcast_S1700000_S1700000x1_0 y (col e) (ix1 e) (fun a => match a with
    | ⟨0, _⟩ => by show e.val = if (1700000 : Nat) = 1 then 0 else e.val; rw [if_neg (by decide)])

/-- `dinv[:, None]` broadcast along the lanes. -/
theorem brow_apply {α : Type} (y : S100000.Idx → α) (v : Fin 100000) (c : Fin 128) :
    broadcastInDim S100000x128 ![0, 1] bcast_S100000x1_S100000x128_0_1
      (broadcastInDim S100000x1 ![0] bcast_S100000_S100000x1_0 y) (ix2 v c) = y (ix1 v) := by
  refine (broadcastInDim_apply _ bcast_S100000x1_S100000x128_0_1 _ (ix2 v c) (ix2 v (0 : Fin 1)) (fun a => match a with
    | ⟨0, _⟩ => by show v.val = if (100000 : Nat) = 1 then 0 else v.val; rw [if_neg (by decide)]
    | ⟨1, _⟩ => by show 0 = if (1 : Nat) = 1 then 0 else c.val; rw [if_pos rfl])).trans ?_
  exact broadcastInDim_apply _ bcast_S100000_S100000x1_0 y (ix2 v (0 : Fin 1)) (ix1 v) (fun a => match a with
    | ⟨0, _⟩ => by show v.val = if (100000 : Nat) = 1 then 0 else v.val; rw [if_neg (by decide)])

/-- The bias broadcast along the rows. -/
theorem bbias_apply {α : Type} (y : S128.Idx → α) (v : Fin 100000) (c : Fin 128) :
    broadcastInDim S100000x128 ![0, 1] bcast_S1x128_S100000x128_0_1
      (broadcastInDim S1x128 ![1] bcast_S128_S1x128_1 y) (ix2 v c) = y (ix1 c) := by
  refine (broadcastInDim_apply _ bcast_S1x128_S100000x128_0_1 _ (ix2 v c) (ix2 (0 : Fin 1) c) (fun a => match a with
    | ⟨0, _⟩ => by show 0 = if (1 : Nat) = 1 then 0 else v.val; rw [if_pos rfl]
    | ⟨1, _⟩ => by show c.val = if (128 : Nat) = 1 then 0 else c.val; rw [if_neg (by decide)])).trans ?_
  exact broadcastInDim_apply _ bcast_S128_S1x128_1 y (ix2 (0 : Fin 1) c) (ix1 c) (fun a => match a with
    | ⟨0, _⟩ => by show c.val = if (128 : Nat) = 1 then 0 else c.val; rw [if_neg (by decide)])

/-! ## The host code before the call -/

/-- `src = concat(edge_index[0], arange)`. -/
def srcK (x1 : IVec S2x1600000 32) : IVec S1700000 32 :=
  concatenate S1700000 0
    [⟨S1600000, shapeCast S1600000 (extractStridedSlice S1x1600000 ![0, 0] x1 slices_S2x1600000_S1x1600000_0_0)
        shapeCasts_S1x1600000_S1600000⟩, ⟨S100000, iotaInDim S100000 32 0⟩]
    concatenates_S1600000_S100000_S1700000_d0

/-- `dst = concat(edge_index[1], arange)`. -/
def dstK (x1 : IVec S2x1600000 32) : IVec S1700000 32 :=
  concatenate S1700000 0
    [⟨S1600000, shapeCast S1600000 (extractStridedSlice S1x1600000 ![1, 0] x1 slices_S2x1600000_S1x1600000_1_0)
        shapeCasts_S1x1600000_S1600000⟩, ⟨S100000, iotaInDim S100000 32 0⟩]
    concatenates_S1600000_S100000_S1700000_d0

/-- `deg = segment_sum(ones, dst)`. -/
def degK (x1 : IVec S2x1600000 32) : FVec Ideal S100000 .f32 :=
  Host.scatterAdd scatter_S100000_S1700000x1_S1700000_n_0_0_1
    (broadcastInDim S100000 ![] bcast_S_S100000 (constant (F := Ideal) S_ .f32 0x00000000#32))
    (broadcastInDim S1700000x1 ![0] bcast_S1700000_S1700000x1_0 (dstK x1))
    (broadcastInDim S1700000 ![] bcast_S_S1700000 (constant (F := Ideal) S_ .f32 0x3F800000#32))

/-- `dinv = rsqrt(max(deg, 1))`. -/
def dinvK (x1 : IVec S2x1600000 32) : FVec Ideal S100000 .f32 :=
  Host.rsqrt (maximumf (degK x1) (broadcastInDim S100000 ![] bcast_S_S100000 (constant (F := Ideal) S_ .f32 0x3F800000#32)))

variable (m : (ℓ : Loc nD τ sig) → Buf (Elt Ideal) ℓ) (ρ : Dev nD → PrngReg)

/-- The region finds `src` in its buffer. -/
theorem V_v3 (c : Dev nD) : (V m c main_v3 : IVec S1700000 32) = srcK (m ((c : Thread nD τ).loc main_arg1)) := by
  show StableHlo.after hostOps0 (fun b => m (c, b)) (Proc.devRef .tc main_v3) = _
  after_results
  rfl

/-- The region finds `dst` in its buffer. -/
theorem V_v6 (c : Dev nD) : (V m c main_v6 : IVec S1700000 32) = dstK (m ((c : Thread nD τ).loc main_arg1)) := by
  show StableHlo.after hostOps0 (fun b => m (c, b)) (Proc.devRef .tc main_v6) = _
  after_results
  rfl

/-- The region finds `dinv` in its buffer. -/
theorem V_v13 (c : Dev nD) : (V m c main_v13 : FVec Ideal S100000 .f32) = dinvK (m ((c : Thread nD τ).loc main_arg1)) := by
  show StableHlo.after hostOps0 (fun b => m (c, b)) (Proc.devRef .tc main_v13) = _
  after_results
  rfl

/-- The call's third operand is `dinv` as a column. -/
theorem V_v14 (c : Dev nD) : (V m c main_v14 : FVec Ideal S100000x1 .f32)
    = shapeCast S100000x1 (dinvK (m ((c : Thread nD τ).loc main_arg1))) shapeCasts_S100000_S100000x1 := by
  show StableHlo.after hostOps0 (fun b => m (c, b)) (Proc.devRef .tc main_v14) = _
  after_results
  rfl

/-! ## The host code after the call -/

/-- `dinv[:, None] · segment_sum(h2[src], dst) + b` as one function of the five arrays it reads. -/
def tailK (dinv : FVec Ideal S100000 .f32) (dst : IVec S1700000 32) (h2 : FVec Ideal S100000x128 .f32)
    (src : IVec S1700000 32) (b : FVec Ideal S128 .f32) : FVec Ideal S100000x128 .f32 :=
  addf
    (mulf
      (broadcastInDim S100000x128 ![0, 1] bcast_S100000x1_S100000x128_0_1
        (broadcastInDim S100000x1 ![0] bcast_S100000_S100000x1_0 dinv))
      (Host.scatterAdd scatter_S100000x128_S1700000x1_S1700000x128_1_0_0_1
        (broadcastInDim S100000x128 ![] bcast_S_S100000x128 (constant (F := Ideal) S_ .f32 0x00000000#32))
        (broadcastInDim S1700000x1 ![0] bcast_S1700000_S1700000x1_0 dst)
        (Host.gather gather_S100000x128_S1700000x1_S1700000x128_1_0_n_n_0_1_1128 h2
          (broadcastInDim S1700000x1 ![0] bcast_S1700000_S1700000x1_0
            (select (cmpi .slt src (broadcastInDim S1700000 ![] bcast_S_S1700000 (constantI S_ 32 0#32)))
              (addi src (broadcastInDim S1700000 ![] bcast_S_S1700000 (constantI S_ 32 100000#32))) src)))))
    (broadcastInDim S100000x128 ![0, 1] bcast_S1x128_S100000x128_0_1 (broadcastInDim S1x128 ![1] bcast_S128_S1x128_1 b))

/-- What a buffer holds when the host code after the call starts: the call's arrays as it left them, the rest as
    the region found them. -/
abbrev W (c : Dev nD) (r : Ref sig .tc) :=
  Pipeline.withArrays (cfgs 0).spec c (V0 m c) (fun w => (dats m 0 c).arrAt w (cfgs 0).N) (Proc.devRef .tc r)

set_option maxHeartbeats 1000000 in
/-- The program's result is the tail's function of those buffers. -/
theorem tail_eq (c : Dev nD) :
    Pipeline.afterTail₀ cfgs (dats m) 0 (V0 m) [hostOps1] c main_v31
      = tailK (W m c main_v13) (W m c main_v6) (W m c main_v15) (W m c main_v3) (W m c main_arg3) := by
  unfold Pipeline.afterTail₀
  simp only [List.flatten_cons, List.flatten_nil, List.append_nil]
  after_results
  rfl

/-- The call's output array is what the call left. -/
theorem W_v15 (c : Dev nD) : W m c main_v15 = (dats m 0 c).arrAt 3 cfg0.N :=
  Pipeline.withArrays_arr spec0 launch0.win.arr_inj c _ _ 3

/-- The other four are no array of the call. -/
theorem W_v13 (c : Dev nD) : W m c main_v13 = V m c main_v13 :=
  Pipeline.withArrays_of_ne _ c (V0 m c) _ main_v13 (by exact (by decide : ∀ w, Pipeline.arrRef spec0 w ≠ main_v13))
theorem W_v6 (c : Dev nD) : W m c main_v6 = V m c main_v6 :=
  Pipeline.withArrays_of_ne _ c (V0 m c) _ main_v6 (by exact (by decide : ∀ w, Pipeline.arrRef spec0 w ≠ main_v6))
theorem W_v3 (c : Dev nD) : W m c main_v3 = V m c main_v3 :=
  Pipeline.withArrays_of_ne _ c (V0 m c) _ main_v3 (by exact (by decide : ∀ w, Pipeline.arrRef spec0 w ≠ main_v3))
theorem W_arg3 (c : Dev nD) : W m c main_arg3 = m ((c : Thread nD τ).loc main_arg3) :=
  (Pipeline.withArrays_of_ne _ c (V0 m c) _ main_arg3 (by exact (by decide : ∀ w, Pipeline.arrRef spec0 w ≠ main_arg3))).trans
    (V_main_arg3 m c)

end Cert.KernelIdeal.KValue

end
-- ==== Proof.KernelValue.lean ====
/-
  The kernel program's result at an index is the layer with the node's factor pulled out.

  `out[v, c] = dinv[v] · (0 + Σ_{e lands on v} h2[src e, c]) + b[c]` with `h2[i, c] = (x · W)[i, c] · dinv[i]` and
  `dinv = rsqrt(max(deg, 1))`: term by term `Gcn.outPulled` over the words of `src` and `dst`.
-/
import proofs.«130572_j14061722927346_2_alg».proof.Proof.KernelTail

noncomputable section

open scoped BigOperators

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx
open Idealize.ShloMosaic.Pipeline (Dat)
open Cert.LibRows Cert.Gcn

/-- A broadcast scalar reads the scalar's one element everywhere. -/
theorem bscalar_apply {α : Type} {s : Shape} (h : S_.BroadcastsInDim s (![] : Fin 0 → Fin s.rank)) (y : S_.Idx → α)
    (i : s.Idx) : broadcastInDim s ![] h y i = y ix0 :=
  broadcastInDim_apply _ h y i ix0 (fun a => a.elim0)

/-! ## The two segment sums over the landing sets -/

/-- The degree's segment sum at node `v`, over the messages landing on `v`. -/
theorem host_scat1_landing (a : S100000.Idx → EReal) (b : IVec S1700000x1 32) (u : S1700000.Idx → EReal) (v : Fin 100000) :
    Host.scatterAdd (F := Ideal) (φ := .f32) scatter_S100000_S1700000x1_S1700000_n_0_0_1 a b u (ix1 v)
      = a (ix1 v) + ∑ e ∈ landing (fun e => b (col e)) v, u (ix1 e) := by
  rw [host_scat1_apply]
  rfl

/-- The rows' segment sum at `(v, c)`, over the messages landing on `v`. -/
theorem host_scat2_landing (a : S100000x128.Idx → EReal) (b : IVec S1700000x1 32) (u : S1700000x128.Idx → EReal)
    (v : Fin 100000) (c : Fin 128) :
    Host.scatterAdd (F := Ideal) (φ := .f32) scatter_S100000x128_S1700000x1_S1700000x128_1_0_0_1 a b u (ix2 v c)
      = a (ix2 v c) + ∑ e ∈ landing (fun e => b (col e)) v, u (ix2 e c) := by
  rw [host_scat2_apply]
  rfl

/-- A flat array of words seen through the start-index column is the array. -/
theorem bcol_fun (y : IVec S1700000 32) :
    (fun e : Fin 1700000 => broadcastInDim S1700000x1 ![0] bcast_S1700000_S1700000x1_0 y (col e)) = fun e => y (ix1 e) :=
  funext fun e => bcol_apply y e

/-! ## The tail at an index, over arbitrary arrays -/

/-- A gathered row: `h2` at the source word wrapped and clamped. -/
theorem gathered_apply (h2 : FVec Ideal S100000x128 .f32) (src : IVec S1700000 32) (e : Fin 1700000) (c : Fin 128) :
    Host.gather gather_S100000x128_S1700000x1_S1700000x128_1_0_n_n_0_1_1128 h2
        (broadcastInDim S1700000x1 ![0] bcast_S1700000_S1700000x1_0
          (select (cmpi .slt src (broadcastInDim S1700000 ![] bcast_S_S1700000 (constantI S_ 32 0#32)))
            (addi src (broadcastInDim S1700000 ![] bcast_S_S1700000 (constantI S_ 32 100000#32))) src)) (ix2 e c)
      = h2 (ix2 (srcRow hN 100000#32 (fun e => src (ix1 e)) e) c) := by
  rw [host_gath2_apply, bcol_apply]
  show h2 (ix2 (clampRow hN (Scalar.select
      (IntOp.cmpi .slt (src (ix1 e)) (broadcastInDim S1700000 ![] bcast_S_S1700000 (constantI S_ 32 0#32) (ix1 e)))
      (IntOp.addi (src (ix1 e)) (broadcastInDim S1700000 ![] bcast_S_S1700000 (constantI S_ 32 100000#32) (ix1 e)))
      (src (ix1 e)))) c) = _
  rw [bscalar_apply, bscalar_apply]
  rfl

/-- THE TAIL AT `(v, c)`. -/
theorem tailK_apply (dinv : FVec Ideal S100000 .f32) (dst : IVec S1700000 32) (h2 : FVec Ideal S100000x128 .f32)
    (src : IVec S1700000 32) (b : FVec Ideal S128 .f32) (v : Fin 100000) (c : Fin 128) :
    tailK dinv dst h2 src b (ix2 v c)
      = (dinv (ix1 v) : EReal) * (0 + ∑ e ∈ landing (fun e => dst (ix1 e)) v,
          (h2 (ix2 (srcRow hN 100000#32 (fun e => src (ix1 e)) e) c) : EReal)) + (b (ix1 c) : EReal) := by
  unfold tailK
  refine (addf_apply _ _ _).trans ?_
  refine congrArg₂ (· + ·) ?_ (bbias_apply b v c)
  refine (mulf_apply _ _ _).trans ?_
  refine congrArg₂ (· * ·) (brow_apply dinv v c) ?_
  rw [host_scat2_landing, bscalar_apply, constant_apply, Ideal.ofBits_zero_f32, bcol_fun]
  refine congrArg (0 + ·) (Finset.sum_congr rfl fun e _ => ?_)
  exact gathered_apply h2 src e c

/-! ## Degrees, `dinv`, and the scaled features at an index -/

/-- `segment_sum(ones, dst)` at node `v` is the degree. -/
theorem degK_apply (x1 : IVec S2x1600000 32) (v : Fin 100000) : degK x1 (ix1 v) = deg (fun e => dstK x1 (ix1 e)) v := by
  unfold degK
  rw [host_scat1_landing, bscalar_apply, constant_apply, Ideal.ofBits_zero_f32, bcol_fun]
  unfold deg
  refine congrArg (0 + ·) (Finset.sum_congr rfl fun e _ => ?_)
  rw [bscalar_apply, constant_apply, ofBits_one_f32]

/-- The host's inverse square root at an element. -/
theorem hostRsqrt_apply (x : FVec Ideal S100000 .f32) (i : S100000.Idx) : Host.rsqrt x i = Ideal.rsqrt (x i) := rfl

/-- `rsqrt(max(deg, 1))` at node `v`. -/
theorem dinvK_apply (x1 : IVec S2x1600000 32) (v : Fin 100000) : dinvK x1 (ix1 v) = dinvMax (fun e => dstK x1 (ix1 e)) v := by
  unfold dinvK dinvMax
  rw [hostRsqrt_apply, maximumf_apply, degK_apply, bscalar_apply, constant_apply, ofBits_one_f32]

/-- The scaled features with a flat array as the column, at `(i, c)`. -/
theorem scaled_apply (x : S100000x128.Idx → EReal) (w : S128x128.Idx → EReal) (dv : S100000.Idx → EReal)
    (i : Fin 100000) (c : Fin 128) :
    scaled x w (shapeCast S100000x1 dv shapeCasts_S100000_S100000x1) (ix2 i c) = feat x w i c * dv (ix1 i) := by
  show (∑ k : Fin 128, x (ix2 i k) * w (ix2 k c))
    * shapeCast S100000x1 dv shapeCasts_S100000_S100000x1 (ix2 i (0 : Fin 1)) = _
  rw [Cert.LibColumn.shapeCast_a_a1_apply]
  rfl

/-! ## The result -/

variable (m : (ℓ : Loc nD τ sig) → Buf (Elt Ideal) ℓ) (ρ : Dev nD → PrngReg)

/-- THE KERNEL PROGRAM'S RESULT AT `(v, q)` is the layer with the node's factor pulled out. -/
theorem result_apply (c : Dev nD) (v : Fin 100000) (q : Fin 128) :
    (Pipeline.afterTail₀ cfgs (dats m) 0 (V0 m) [hostOps1] c main_v31 : S100000x128.Idx → EReal) (ix2 v q)
      = outPulled hN 100000#32 (m ((c : Thread nD τ).loc main_arg0)) (m ((c : Thread nD τ).loc main_arg2))
          (fun j => (m ((c : Thread nD τ).loc main_arg3) : S128.Idx → EReal) (ix1 j))
          (fun e => srcK (m ((c : Thread nD τ).loc main_arg1)) (ix1 e))
          (fun e => dstK (m ((c : Thread nD τ).loc main_arg1)) (ix1 e)) v q := by
  rw [tail_eq, W_v15, W_v13, W_v6, W_v3, W_arg3, final3, V_v13, V_v6, V_v3, V_v14, V_main_arg0, V_main_arg2]
  rw [tailK_apply, dinvK_apply]
  unfold outPulled
  simp only [scaled_apply, dinvK_apply]

end Cert.KernelIdeal.KValue

end
-- ==== Proof.lean ====
/-
  One graph-convolution layer with symmetric normalisation: a Pallas kernel program against its jnp reference, on the
  extended reals.

  Both programs add a self loop to every node, count each node's incoming messages (`deg`), and normalise by
  `deg^(-1/2)` at both ends of every message. The reference scales message `e` by `dinv[src e] · dinv[dst e]` and sums
  the scaled rows of `h = x · W` per destination. The kernel program moves the destination's factor out of that sum: its
  pallas_call computes `h2 = (x · W) · dinv[:, None]` block by block (20 blocks of 5000 rows; a matrix product with a
  change of float format on the way in, which is the identity here), and the host then forms
  `dinv[:, None] · segment_sum(h2[src], dst) + b`. The two are equal because every node receives its own self loop,
  so `deg ≥ 1`: the reference's guard `where(deg > 0, ·, 0)` and the kernel's `max(deg, 1)` are both inert, and
  `dinv[v]` is a non-negative real, which distributes over a sum of extended reals whatever the terms
  (`Gcn.outPulled_eq_outEdgewise`). No finiteness of `x`, `W` or `b` is used.

  The frames of the two kernel programs are the generated ones; the reference's is its run with the result dropped.
  The idealization rewrote nothing, so it is preserved trivially.
-/
import proofs.«130572_j14061722927346_2_alg».proof.Defs
import proofs.«130572_j14061722927346_2_alg».proof.Proof.Gen.Kernel
import proofs.«130572_j14061722927346_2_alg».proof.Proof.Gen.Kernel.Skeleton
import proofs.«130572_j14061722927346_2_alg».proof.Proof.Gen.Kernel.Launch
import proofs.«130572_j14061722927346_2_alg».proof.Proof.Gen.Kernel.Points
import proofs.«130572_j14061722927346_2_alg».proof.Proof.Gen.Kernel.Frame
import proofs.«130572_j14061722927346_2_alg».proof.Proof.Gen.KernelIdeal
import proofs.«130572_j14061722927346_2_alg».proof.Proof.Gen.KernelIdeal.Skeleton
import proofs.«130572_j14061722927346_2_alg».proof.Proof.Gen.KernelIdeal.Launch
import proofs.«130572_j14061722927346_2_alg».proof.Proof.Gen.KernelIdeal.Points
import proofs.«130572_j14061722927346_2_alg».proof.Proof.Gen.KernelIdeal.Frame
import proofs.«130572_j14061722927346_2_alg».proof.Proof.Gen.ReferenceIdeal
import proofs.«130572_j14061722927346_2_alg».proof.Proof.Gen.Pre_finite_inputs
import proofs.«130572_j14061722927346_2_alg».proof.Proof.RefValue
import proofs.«130572_j14061722927346_2_alg».proof.Proof.KernelValue
import Idealize.ShloMosaic.Adequacy
import Idealize.ShloMosaic.Init

noncomputable section

/-! ## The kernel program's run, with its result named -/

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every weakly fair execution terminates with the result buffer at what the host code after the call computes from
    the call's output array, and the arguments unchanged. -/
theorem run : θ_run defs (onTc (τ := τ) (main (F := Ideal))) ⟨m, fun _ => 0, ρ⟩ (fun r => ∀ c : Dev nD,
      r.2.mem ((c.tc : Thread nD τ).loc main_v31) = Pipeline.afterTail₀ cfgs (dats m) 0 (V0 m) [hostOps1] c main_v31
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v31 (Pipeline.mem_restRefs_of main_v31 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KValue

namespace Cert.Proof

open Idealize.ShloMosaic Idealize.ShloMosaic.TcCoe Idealize.SL.Sem Idealize.ShloMosaic.ValueIdx

/-- THE TWO RESULTS ARE ONE ARRAY: the kernel program's result, as a function of its arguments, is the reference's
    result term of the same arguments — at every `(v, q)` the pulled-out form against the edge-by-edge form, over the
    same source and destination words, every node receiving its self loop. -/
theorem results_eq (m : (ℓ : Loc Cert.KernelIdeal.nD Cert.KernelIdeal.τ Cert.KernelIdeal.sig) → Buf (Elt Ideal) ℓ)
    (c : Dev Cert.KernelIdeal.nD) :
    Cert.ReferenceIdeal.ReadP.val_main_v46 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Pipeline.afterTail₀ Cert.KernelIdeal.cfgs (Cert.KernelIdeal.Gen.dats m) 0 (Cert.KernelIdeal.Gen.V0 m)
          [Cert.KernelIdeal.Gen.hostOps1] c Cert.KernelIdeal.main_v31 := by
  funext i
  obtain ⟨v, q, rfl⟩ : ∃ (v : Fin 100000) (q : Fin 128), i = ix2 v q := ⟨i 0, i 1, eq_ix2 i⟩
  rw [Cert.ReferenceIdeal.RefValue.result_apply]
  refine ((Cert.KernelIdeal.KValue.result_apply m c v q).trans ?_).symm
  have hs : (fun e => Cert.KernelIdeal.KValue.srcK
        (m ((c.tc : Thread Cert.KernelIdeal.nD Cert.KernelIdeal.τ).loc Cert.KernelIdeal.main_arg1)) (ix1 e))
      = Cert.ReferenceIdeal.RefValue.srcW
        (m ((c.tc : Thread Cert.KernelIdeal.nD Cert.KernelIdeal.τ).loc Cert.KernelIdeal.main_arg1)) := funext fun e => rfl
  have hd : (fun e => Cert.KernelIdeal.KValue.dstK
        (m ((c.tc : Thread Cert.KernelIdeal.nD Cert.KernelIdeal.τ).loc Cert.KernelIdeal.main_arg1)) (ix1 e))
      = Cert.ReferenceIdeal.RefValue.dstW
        (m ((c.tc : Thread Cert.KernelIdeal.nD Cert.KernelIdeal.τ).loc Cert.KernelIdeal.main_arg1)) := funext fun e => rfl
  rw [hs, hd]
  exact Cert.Gcn.outPulled_eq_outEdgewise _ _ _ _ _ _ _ (Cert.ReferenceIdeal.RefValue.landing_nonempty _) v q

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Run from memories that agree on the arguments, both programs end with equal results. -/
theorem algebraic : Cert.algebraic_KernelIdeal_ReferenceIdeal := by
  intro m ρ m' ρ' _ hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v31, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v46_eq, (hagree c).1, (hagree c).2.1, (hagree c).2.2.1, (hagree c).2.2.2]
  exact results_eq m c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
